-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1x128 : Shape := ⟨3, ![2048, 1, 128]⟩
abbrev S2048x200x128 : Shape := ⟨3, ![2048, 200, 128]⟩
abbrev S2048x1 : Shape := ⟨2, ![2048, 1]⟩
abbrev S128x128 : Shape := ⟨2, ![128, 128]⟩
abbrev S128 : Shape := ⟨1, ![128]⟩
abbrev S_ : Shape := ⟨0, ![]⟩

class Facts : Prop where
  bcast_S_S2048x1x128 : S_.BroadcastsInDim S2048x1x128 (![] : Fin 0 → Fin S2048x1x128.rank)
  reducesTo_S2048x1x128_S_d0_1_2 : S2048x1x128.ReducesTo [0, 1, 2] S_
  h_S_ : 0 < S_.numel
  bcast_S_S2048x200x128 : S_.BroadcastsInDim S2048x200x128 (![] : Fin 0 → Fin S2048x200x128.rank)
  reducesTo_S2048x200x128_S_d0_1_2 : S2048x200x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S2048x1x128 .f32) (main_arg1 : FVec F S2048x200x128 .f32) (main_arg2 : IVec S2048x1 32) (main_arg3 : FVec F S128x128 .f32) (main_arg4 : FVec F S128 .f32) : IVec S_ 1 :=
  let main_v0 : FVec F S2048x1x128 .f32 := Host.absf main_arg0
  let main_cst : FVec F S_ .f32 := constant S_ .f32 0x7F800000#32
  let main_v1 : FVec F S2048x1x128 .f32 := broadcastInDim S2048x1x128 ![] bcast_S_S2048x1x128 main_cst
  let main_v2 : IVec S2048x1x128 1 := cmpf .olt main_v0 main_v1
  let main_c : IVec S_ 1 := constantI S_ 1 1#1
  let main_v3 : IVec S_ 1 := (fun x v => Host.reduce IntOp.andi x v reducesTo_S2048x1x128_S_d0_1_2 h_S_) main_v2 main_c
  let main_v4 : FVec F S2048x200x128 .f32 := Host.absf main_arg1
  let main_cst_0 : FVec F S_ .f32 := constant S_ .f32 0x7F800000#32
  let main_v5 : FVec F S2048x200x128 .f32 := broadcastInDim S2048x200x128 ![] bcast_S_S2048x200x128 main_cst_0
  let main_v6 : IVec S2048x200x128 1 := cmpf .olt main_v4 main_v5
  let main_c_1 : IVec S_ 1 := constantI S_ 1 1#1
  let main_v7 : IVec S_ 1 := (fun x v => Host.reduce IntOp.andi x v reducesTo_S2048x200x128_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S2048x1x128 : Shape := ⟨3, ![2048, 1, 128]⟩
abbrev S2048x200x128 : Shape := ⟨3, ![2048, 200, 128]⟩
abbrev S2048x1 : Shape := ⟨2, ![2048, 1]⟩
abbrev S128x128 : Shape := ⟨2, ![128, 128]⟩
abbrev S128 : Shape := ⟨1, ![128]⟩
abbrev S64x1x128 : Shape := ⟨3, ![64, 1, 128]⟩
abbrev S64x200x128 : Shape := ⟨3, ![64, 200, 128]⟩
abbrev S64x1 : Shape := ⟨2, ![64, 1]⟩
abbrev S64x128 : Shape := ⟨2, ![64, 128]⟩
abbrev S1x128 : Shape := ⟨2, ![1, 128]⟩
abbrev S64x200 : Shape := ⟨2, ![64, 200]⟩
abbrev S64x200x1 : Shape := ⟨3, ![64, 200, 1]⟩
abbrev S64x1x1 : Shape := ⟨3, ![64, 1, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1x128, .f32⟩
  | .hbm, ⟨1, _⟩ => ⟨S2048x200x128, .f32⟩
  | .hbm, ⟨2, _⟩ => ⟨S2048x1, .i32⟩
  | .hbm, ⟨3, _⟩ => ⟨S128x128, .f32⟩
  | .hbm, ⟨4, _⟩ => ⟨S128, .f32⟩
  | .hbm, ⟨5, _⟩ => ⟨S2048x1x128, .f32⟩
  | .local _ .vmem, ⟨0, _⟩ => ⟨S64x1x128, .f32⟩
  | .local _ .vmem, ⟨1, _⟩ => ⟨S64x1x128, .f32⟩
  | .local _ .vmem, ⟨2, _⟩ => ⟨S64x200x128, .f32⟩
  | .local _ .vmem, ⟨3, _⟩ => ⟨S64x200x128, .f32⟩
  | .local _ .vmem, ⟨4, _⟩ => ⟨S64x1, .i32⟩
  | .local _ .vmem, ⟨5, _⟩ => ⟨S64x1, .i32⟩
  | .local _ .vmem, ⟨6, _⟩ => ⟨S128x128, .f32⟩
  | .local _ .vmem, ⟨7, _⟩ => ⟨S128, .f32⟩
  | .local _ .vmem, ⟨8, _⟩ => ⟨S64x1x128, .f32⟩
  | .local _ .vmem, ⟨9, _⟩ => ⟨S64x1x128, .f32⟩
  | _, _ => ⟨S2048x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x1x128_S64x1x128_0_0_0 : ∀ a, (![0, 0, 0] : Fin 3 → Nat) a + S64x1x128.size a ≤ S64x1x128.size a
  h_S64x1x128 : 0 < S64x1x128.numel
  shapeCasts_S64x1x128_S64x128 : S64x1x128.ShapeCasts S64x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S64x200x128_S64x200x128_0_0_0 : ∀ a, (![0, 0, 0] : Fin 3 → Nat) a + S64x200x128.size a ≤ S64x200x128.size a
  h_S64x200x128 : 0 < S64x200x128.numel
  shapeCasts_S64x128_S64x1x128 : S64x128.ShapeCasts S64x1x128
  broadcasts_S64x1x128_S64x200x128 : S64x1x128.Broadcasts S64x200x128
  reduces_S64x200x128_S64x200 : S64x200x128.Reduces [2] S64x200
  shapeCasts_S64x200_S64x200x1 : S64x200.ShapeCasts S64x200x1
  inb_S64x1_S64x1_0_0 : ∀ a, (![0, 0] : Fin 2 → Nat) a + S64x1.size a ≤ S64x1.size a
  h_S64x1 : 0 < S64x1.numel
  shapeCasts_S64x1_S64x1x1 : S64x1.ShapeCasts S64x1x1
  iota_S64x200x1_d1_w32 : S64x200x1.Iotas .tc 32 [1]
  broadcasts_S64x1x1_S64x200x1 : S64x1x1.Broadcasts S64x200x1
  reduces_S64x200x1_S64x1 : S64x200x1.Reduces [1] S64x1
  broadcasts_S64x200x1_S64x200x128 : S64x200x1.Broadcasts S64x200x128
  reduces_S64x200x128_S64x128 : S64x200x128.Reduces [1] S64x128
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x128.size a ≤ S2048x1x128.size a
  hwx0_0 : ∀ i : grid0.Coords, EltTy.bits .f32 = 32 ∨ (Rect.block (s := S2048x1x128) S64x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x200x128.size a ≤ S2048x200x128.size a
  hwx0_1 : ∀ i : grid0.Coords, EltTy.bits .f32 = 32 ∨ (Rect.block (s := S2048x200x128) S64x200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S2048x1.size a
  hwx0_2 : ∀ i : grid0.Coords, EltTy.bits .i32 = 32 ∨ (Rect.block (s := S2048x1) S64x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1x128.size a ≤ S2048x1x128.size a
  hwx0_5 : ∀ i : grid0.Coords, EltTy.bits .f32 = 32 ∨ (Rect.block (s := S2048x1x128) S64x1x128.size (cc0_transform_5 i) (hinb0_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S64x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x1x128 : Shape := ⟨3, ![2048, 1, 128]⟩
abbrev S2048x200x128 : Shape := ⟨3, ![2048, 200, 128]⟩
abbrev S2048x1 : Shape := ⟨2, ![2048, 1]⟩
abbrev S128x128 : Shape := ⟨2, ![128, 128]⟩
abbrev S128 : Shape := ⟨1, ![128]⟩
abbrev S_ : Shape := ⟨0, ![]⟩
abbrev S1x1x128 : Shape := ⟨3, ![1, 1, 128]⟩
abbrev S2048x1x200 : Shape := ⟨3, ![2048, 1, 200]⟩
abbrev S200 : Shape := ⟨1, ![200]⟩
abbrev S1x1x200 : Shape := ⟨3, ![1, 1, 200]⟩
abbrev S2048x1x1 : Shape := ⟨3, ![2048, 1, 1]⟩
abbrev S2048x128 : Shape := ⟨2, ![2048, 128]⟩

abbrev nBuf : Space → Nat
  | .hbm => 46
  | .vmem => 0
  | .smem => 0
  | _ => 0

abbrev bufTy : (tb : Table) → Fin (tcTables nBuf tb) → BufTy
  | .hbm, ⟨0, _⟩ => ⟨S2048x1x128, .f32⟩
  | .hbm, ⟨1, _⟩ => ⟨S2048x200x128, .f32⟩
  | .hbm, ⟨2, _⟩ => ⟨S2048x1, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S2048x1x128, .f32⟩
  | .hbm, ⟨7, _⟩ => ⟨S1x1x128, .f32⟩
  | .hbm, ⟨8, _⟩ => ⟨S2048x1x128, .f32⟩
  | .hbm, ⟨9, _⟩ => ⟨S2048x1x128, .f32⟩
  | .hbm, ⟨10, _⟩ => ⟨S2048x1x128, .f32⟩
  | .hbm, ⟨11, _⟩ => ⟨S2048x1x200, .f32⟩
  | .hbm, ⟨12, _⟩ => ⟨S_, .f32⟩
  | .hbm, ⟨13, _⟩ => ⟨S2048x1x200, .f32⟩
  | .hbm, ⟨14, _⟩ => ⟨S2048x1x200, .f32⟩
  | .hbm, ⟨15, _⟩ => ⟨S200, .i32⟩
  | .hbm, ⟨16, _⟩ => ⟨S1x1x200, .i32⟩
  | .hbm, ⟨17, _⟩ => ⟨S2048x1x1, .i32⟩
  | .hbm, ⟨18, _⟩ => ⟨S2048x1x200, .i32⟩
  | .hbm, ⟨19, _⟩ => ⟨S2048x1x200, .i32⟩
  | .hbm, ⟨20, _⟩ => ⟨S2048x1x200, .i1⟩
  | .hbm, ⟨21, _⟩ => ⟨S2048x1x200, .f32⟩
  | .hbm, ⟨22, _⟩ => ⟨S2048x1x200, .f32⟩
  | .hbm, ⟨23, _⟩ => ⟨S_, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1x1, .f32⟩
  | .hbm, ⟨29, _⟩ => ⟨S2048x1x200, .f32⟩
  | .hbm, ⟨30, _⟩ => ⟨S2048x1x200, .f32⟩
  | .hbm, ⟨31, _⟩ => ⟨S2048x1x200, .f32⟩
  | .hbm, ⟨32, _⟩ => ⟨S_, .f32⟩
  | .hbm, ⟨33, _⟩ => ⟨S2048x1, .f32⟩
  | .hbm, ⟨34, _⟩ => ⟨S2048x1x1, .f32⟩
  | .hbm, ⟨35, _⟩ => ⟨S2048x1x200, .f32⟩
  | .hbm, ⟨36, _⟩ => ⟨S2048x1x200, .f32⟩
  | .hbm, ⟨37, _⟩ => ⟨S2048x1x128, .f32⟩
  | .hbm, ⟨38, _⟩ => ⟨S2048x200x128, .f32⟩
  | .hbm, ⟨39, _⟩ => ⟨S2048x200x128, .f32⟩
  | .hbm, ⟨40, _⟩ => ⟨S_, .f32⟩
  | .hbm, ⟨41, _⟩ => ⟨S2048x128, .f32⟩
  | .hbm, ⟨42, _⟩ => ⟨S2048x1x128, .f32⟩
  | .hbm, ⟨43, _⟩ => ⟨S_, .f32⟩
  | .hbm, ⟨44, _⟩ => ⟨S2048x1x128, .f32⟩
  | .hbm, ⟨45, _⟩ => ⟨S2048x1x128, .f32⟩
  | _, _ => ⟨S2048x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2048x1x128_0_1_2 : S1x1x128.BroadcastsInDim S2048x1x128 (![0, 1, 2] : Fin 3 → Fin S2048x1x128.rank)
  bcast_S_S2048x1x200 : S_.BroadcastsInDim S2048x1x200 (![] : Fin 0 → Fin S2048x1x200.rank)
  bcast_S200_S1x1x200_2 : S200.BroadcastsInDim S1x1x200 (![2] : Fin 1 → Fin S1x1x200.rank)
  bcast_S2048x1_S2048x1x1_0_1 : S2048x1.BroadcastsInDim S2048x1x1 (![0, 1] : Fin 2 → Fin S2048x1x1.rank)
  bcast_S1x1x200_S2048x1x200_0_1_2 : S1x1x200.BroadcastsInDim S2048x1x200 (![0, 1, 2] : Fin 3 → Fin S2048x1x200.rank)
  bcast_S2048x1x1_S2048x1x200_0_1_2 : S2048x1x1.BroadcastsInDim S2048x1x200 (![0, 1, 2] : Fin 3 → Fin S2048x1x200.rank)
  reducesTo_S2048x1x200_S2048x1_d2 : S2048x1x200.ReducesTo [2] S2048x1
  h_S_ : 0 < S_.numel
  bcast_S_S2048x1 : S_.BroadcastsInDim S2048x1 (![] : Fin 0 → Fin S2048x1.rank)
  bcast_S2048x1x128_S2048x200x128_0_1_2 : S2048x1x128.BroadcastsInDim S2048x200x128 (![0, 1, 2] : Fin 3 → Fin S2048x200x128.rank)
  reducesTo_S2048x200x128_S2048x128_d1 : S2048x200x128.ReducesTo [1] S2048x128
  bcast_S2048x128_S2048x1x128_0_2 : S2048x128.BroadcastsInDim S2048x1x128 (![0, 2] : Fin 2 → Fin S2048x1x128.rank)
  bcast_S_S2048x1x128 : S_.BroadcastsInDim S2048x1x128 (![] : Fin 0 → Fin S2048x1x128.rank)
  dot_S2048x1x128_S128x128_S2048x1x128_2_0_01_1_n_n_wf : DotDims.WF S2048x1x128 S128x128 S2048x1x128 [2] [0] [0, 1] [1] [] []
  dot_S2048x1x128_S2048x200x128_S2048x1x200_2_2_1_1_0_0_wf : DotDims.WF S2048x1x128 S2048x200x128 S2048x1x200 [2] [2] [1] [1] [0] [0]
  dot_S2048x1x200_S2048x200x128_S2048x1x128_2_1_1_2_0_0_wf : DotDims.WF S2048x1x200 S2048x200x128 S2048x1x128 [2] [1] [1] [2] [0] [0]

variable [Facts₀]

def dot_S2048x1x128_S128x128_S2048x1x128_2_0_01_1_n_n : DotDims S2048x1x128 S128x128 S2048x1x128 where
  lhsContracting := [2]
  rhsContracting := [0]
  lhsNonContracting := [0, 1]
  rhsNonContracting := [1]
  lhsBatch := []
  rhsBatch := []
  wf := dot_S2048x1x128_S128x128_S2048x1x128_2_0_01_1_n_n_wf
def dot_S2048x1x128_S2048x200x128_S2048x1x200_2_2_1_1_0_0 : DotDims S2048x1x128 S2048x200x128 S2048x1x200 where
  lhsContracting := [2]
  rhsContracting := [2]
  lhsNonContracting := [1]
  rhsNonContracting := [1]
  lhsBatch := [0]
  rhsBatch := [0]
  wf := dot_S2048x1x128_S2048x200x128_S2048x1x200_2_2_1_1_0_0_wf
def dot_S2048x1x200_S2048x200x128_S2048x1x128_2_1_1_2_0_0 : DotDims S2048x1x200 S2048x200x128 S2048x1x128 where
  lhsContracting := [2]
  rhsContracting := [1]
  lhsNonContracting := [1]
  rhsNonContracting := [2]
  lhsBatch := [0]
  rhsBatch := [0]
  wf := dot_S2048x1x200_S2048x200x128_S2048x1x128_2_1_1_2_0_0_wf

class Facts : Prop extends Facts₀ where

variable [Facts]
-- ==== Proof.KernelLayout.lean ====
/-
  The kernel's layout operations, lane reductions and matrix product, read at explicit coordinates.

  A block of 64 batch rows is laid out as [64, 1, 128] (queries, results), [64, 200, 128] (keys), [64, 200, 1]
  (per-position scalars) and [64, 1] / [64, 1, 1] (per-row scalars). Casting between these layouts keeps the row-major
  position, so an entry at row `p` (position `t`, lane `c`) is read at the same row (position, lane) of the operand, with
  `0` on the unit axes; a broadcast repeats the operand along the axis it lacks. A lane reduction over one axis is the
  sum (the fold of `max`) over that axis's coordinates, and the matrix product at `(p, d)` is the sum over the
  contracted coordinate `k` of `lhs (p, k) · rhs (k, d)`.
-/
import proofs.«147762_j30296699306117_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Layout

open Cert.KernelIdeal Cert.KernelIdeal.Gen Idealize.ShloMosaic Idealize.ShloMosaic.ValueIdx

variable {α : Type}

/-! ## Casts -/

/-- A [64, 1, 128] block viewed [64, 128]: `(p, c)` reads `(p, 0, c)`. -/
theorem cast_drop_mid (v : S64x1x128.Idx → α) (h : S64x1x128.ShapeCasts S64x128) (p : Fin 64) (c : Fin 128) :
    shapeCast S64x128 v h (ix2 p c) = v (ix3 p (0 : Fin 1) c) :=
  shapeCast_apply v h _ _ (by
    rw [Shape.rowMajor_val_three, Shape.rowMajor_val_two]
    show (p.val * 1 + 0) * 128 + c.val = p.val * 128 + c.val
    omega)

/-- A [64, 128] matrix viewed [64, 1, 128]: `(p, q, c)` reads `(p, c)`. -/
theorem cast_add_mid (v : S64x128.Idx → α) (h : S64x128.ShapeCasts S64x1x128) (p : Fin 64) (q : Fin 1) (c : Fin 128) :
    shapeCast S64x1x128 v h (ix3 p q c) = v (ix2 p c) :=
  shapeCast_apply v h _ _ (by
    have hq : q.val = 0 := by omega
    rw [Shape.rowMajor_val_three, Shape.rowMajor_val_two]
    show p.val * 128 + c.val = (p.val * 1 + q.val) * 128 + c.val
    omega)

/-- A [64, 200] matrix viewed [64, 200, 1]: `(p, t, q)` reads `(p, t)`. -/
theorem cast_add_last (v : S64x200.Idx → α) (h : S64x200.ShapeCasts S64x200x1) (p : Fin 64) (t : Fin 200) (q : Fin 1) :
    shapeCast S64x200x1 v h (ix3 p t q) = v (ix2 p t) :=
  shapeCast_apply v h _ _ (by
    have hq : q.val = 0 := by omega
    rw [Shape.rowMajor_val_three, Shape.rowMajor_val_two]
    show p.val * 200 + t.val = (p.val * 200 + t.val) * 1 + q.val
    omega)

/-- A [64, 1] column viewed [64, 1, 1]: `(p, q, q')` reads `(p, 0)`. -/
theorem cast_add_two (v : S64x1.Idx → α) (h : S64x1.ShapeCasts S64x1x1) (p : Fin 64) (q q' : Fin 1) :
    shapeCast S64x1x1 v h (ix3 p q q') = v (ix2 p (0 : Fin 1)) :=
  shapeCast_apply v h _ _ (by
    have hq : q.val = 0 := by omega
    have hq' : q'.val = 0 := by omega
    rw [Shape.rowMajor_val_three, Shape.rowMajor_val_two]
    show p.val * 1 + 0 = (p.val * 1 + q.val) * 1 + q'.val
    omega)

/-! ## Broadcasts -/

/-- A [64, 1, 128] block repeated over the 200 positions: `(p, t, c)` reads `(p, 0, c)`. -/
theorem bcast_positions (v : S64x1x128.Idx → α) (h : S64x1x128.Broadcasts S64x200x128) (p : Fin 64) (t : Fin 200) (c : Fin 128) :
    broadcastTo S64x200x128 v h (ix3 p t c) = v (ix3 p (0 : Fin 1) c) := by
  refine broadcastTo_apply v h (ix3 p t c) (ix3 p (0 : Fin 1) c) fun ax => ?_
  match ax with
  | ⟨0, _⟩ => show p.val = if (64 : Nat) = 1 then 0 else p.val; rw [if_neg (by decide)]
  | ⟨1, _⟩ => show 0 = if (1 : Nat) = 1 then 0 else t.val; rw [if_pos rfl]
  | ⟨2, _⟩ => show c.val = if (128 : Nat) = 1 then 0 else c.val; rw [if_neg (by decide)]

/-- A [64, 1, 1] per-row scalar repeated over the 200 positions: `(p, t, q)` reads `(p, 0, 0)`. -/
theorem bcast_row_scalar (v : S64x1x1.Idx → α) (h : S64x1x1.Broadcasts S64x200x1) (p : Fin 64) (t : Fin 200) (q : Fin 1) :
    broadcastTo S64x200x1 v h (ix3 p t q) = v (ix3 p (0 : Fin 1) (0 : Fin 1)) := by
  refine broadcastTo_apply v h (ix3 p t q) (ix3 p (0 : Fin 1) (0 : Fin 1)) fun ax => ?_
  match ax with
  | ⟨0, _⟩ => show p.val = if (64 : Nat) = 1 then 0 else p.val; rw [if_neg (by decide)]
  | ⟨1, _⟩ => show 0 = if (1 : Nat) = 1 then 0 else t.val; rw [if_pos rfl]
  | ⟨2, _⟩ => show 0 = if (1 : Nat) = 1 then 0 else q.val; rw [if_pos rfl]

/-- A [64, 200, 1] per-position scalar repeated over the 128 lanes: `(p, t, c)` reads `(p, t, 0)`. -/
theorem bcast_lanes (v : S64x200x1.Idx → α) (h : S64x200x1.Broadcasts S64x200x128) (p : Fin 64) (t : Fin 200) (c : Fin 128) :
    broadcastTo S64x200x128 v h (ix3 p t c) = v (ix3 p t (0 : Fin 1)) := by
  refine broadcastTo_apply v h (ix3 p t c) (ix3 p t (0 : Fin 1)) fun ax => ?_
  match ax with
  | ⟨0, _⟩ => show p.val = if (64 : Nat) = 1 then 0 else p.val; rw [if_neg (by decide)]
  | ⟨1, _⟩ => show t.val = if (200 : Nat) = 1 then 0 else t.val; rw [if_neg (by decide)]
  | ⟨2, _⟩ => show 0 = if (1 : Nat) = 1 then 0 else c.val; rw [if_pos rfl]

/-- A [128] vector laid as one row and repeated down the 64 rows: `(p, d)` reads `d`. -/
theorem bcast_bias (v : S128.Idx → α) (hc : S128.ShapeCasts S1x128) (hb : S1x128.Broadcasts S64x128) (p : Fin 64) (d : Fin 128) :
    broadcastTo S64x128 (shapeCast S1x128 v hc) hb (ix2 p d) = v (ix1 d) :=
  (broadcastTo_1b_ab_apply _ hb p d).trans (shapeCast_a_1a_apply v hc (0 : Fin 1) d)

/-- The position counter along the middle axis: `(p, t, q)` reads `t` as a 32-bit word. -/
theorem iota_positions (h : S64x200x1.Iotas .tc 32 [1]) (p : Fin 64) (t : Fin 200) (q : Fin 1) :
    iota .tc S64x200x1 32 [1] h (ix3 p t q) = BitVec.ofNat 32 t.val :=
  iota_single_apply .tc S64x200x1 32 1 h (ix3 p t q)

/-! ## Lane reductions -/

/-- The sum over the lanes of a [64, 200, 128] block, at `(p, t)`. -/
theorem sum_lanes (src : FVec Ideal S64x200x128 .f32) (acc : BitVec (FTy.bits .f32)) (h : S64x200x128.Reduces [2] S64x200)
    (hφ : FKind.Formats .f32) (hacc : acc = FKind.add.neutral .f32 hφ) (p : Fin 64) (t : Fin 200) :
    multiReduction .add [2] S64x200 src acc h hφ hacc (ix2 p t) = ∑ c : Fin 128, src (ix3 p t c) := by
  refine (Ideal.multiReduction_add_single src acc h hφ hacc (ix2 p t)).trans ?_
  refine Finset.sum_congr rfl fun c _ => congrArg src (funext fun ax => Fin.ext ?_)
  match ax with
  | ⟨0, _⟩ => rfl
  | ⟨1, _⟩ => rfl
  | ⟨2, _⟩ => rfl

/-- The sum over the positions of a [64, 200, 128] block, at `(p, c)`. -/
theorem sum_positions (src : FVec Ideal S64x200x128 .f32) (acc : BitVec (FTy.bits .f32)) (h : S64x200x128.Reduces [1] S64x128)
    (hφ : FKind.Formats .f32) (hacc : acc = FKind.add.neutral .f32 hφ) (p : Fin 64) (c : Fin 128) :
    multiReduction .add [1] S64x128 src acc h hφ hacc (ix2 p c) = ∑ t : Fin 200, src (ix3 p t c) := by
  refine (Ideal.multiReduction_add_single src acc h hφ hacc (ix2 p c)).trans ?_
  refine Finset.sum_congr rfl fun t _ => congrArg src (funext fun ax => Fin.ext ?_)
  match ax with
  | ⟨0, _⟩ => rfl
  | ⟨1, _⟩ => rfl
  | ⟨2, _⟩ => rfl

/-- The sum over the positions of a [64, 200, 1] per-position scalar, at `(p, q)`. -/
theorem sum_positions_scalar (src : FVec Ideal S64x200x1 .f32) (acc : BitVec (FTy.bits .f32)) (h : S64x200x1.Reduces [1] S64x1)
    (hφ : FKind.Formats .f32) (hacc : acc = FKind.add.neutral .f32 hφ) (p : Fin 64) (q : Fin 1) :
    multiReduction .add [1] S64x1 src acc h hφ hacc (ix2 p q) = ∑ t : Fin 200, src (ix3 p t q) := by
  refine (Ideal.multiReduction_add_single src acc h hφ hacc (ix2 p q)).trans ?_
  refine Finset.sum_congr rfl fun t _ => congrArg src (funext fun ax => Fin.ext ?_)
  match ax with
  | ⟨0, _⟩ => rfl
  | ⟨1, _⟩ => rfl
  | ⟨2, _⟩ => rfl

/-- The maximum over the positions of a [64, 200, 1] per-position scalar, at `(p, q)`: the fold of `max` from the
    accumulator's value. -/
theorem max_positions_scalar (src : FVec Ideal S64x200x1 .f32) (acc : BitVec (FTy.bits .f32)) (h : S64x200x1.Reduces [1] S64x1)
    (hφ : FKind.Formats .f32) (hacc : acc = FKind.maximumf.neutral .f32 hφ) (p : Fin 64) (q : Fin 1) :
    multiReduction .maximumf [1] S64x1 src acc h hφ hacc (ix2 p q)
      = (Finset.univ : Finset (Fin 200)).fold max (Ideal.ofBits .f32 acc) (fun t => src (ix3 p t q)) := by
  refine (Ideal.multiReduction_maximumf_single src acc h hφ hacc (ix2 p q)).trans ?_
  refine congrArg (fun f : Fin 200 → EReal => Finset.fold max (Ideal.ofBits .f32 acc) f (Finset.univ : Finset (Fin 200))) ?_
  exact funext fun t => congrArg src (funext fun ax => Fin.ext (by
    match ax with
    | ⟨0, _⟩ => rfl
    | ⟨1, _⟩ => rfl
    | ⟨2, _⟩ => rfl))

/-! ## The matrix product -/

theorem lhs_coord0 (i : S64x128.Idx) (q : dot_S64x128_S128x128_S64x128_1_0_0_1_n_n.contr.Idx) : (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_coord1 (i : S64x128.Idx) (q : dot_S64x128_S128x128_S64x128_1_0_0_1_n_n.contr.Idx) : (dot_S64x128_S128x128_S64x128_1_0_0_1_n_n.lhsIdx i q 1).val = (q ⟨0, by decide⟩).val :=
  dot_S64x128_S128x128_S64x128_1_0_0_1_n_n.lhsIdx_val_of_single rfl i q
theorem rhs_coord0 (i : S64x128.Idx) (q : dot_S64x128_S128x128_S64x128_1_0_0_1_n_n.contr.Idx) : (dot_S64x128_S128x128_S64x128_1_0_0_1_n_n.rhsIdx i q 0).val = (q ⟨0, by decide⟩).val :=
  dot_S64x128_S128x128_S64x128_1_0_0_1_n_n.rhsIdx_val_of_single rfl i q
theorem rhs_coord1 (i : S64x128.Idx) (q : dot_S64x128_S128x128_S64x128_1_0_0_1_n_n.contr.Idx) : (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The [64, 128] × [128, 128] product into a zero accumulator, at `(p, d)`: the sum over `k` of `lhs (p, k) · rhs (k, d)`. -/
theorem matmul_rows {φ₁ φ₂ : FTy} (lhs : FVec Ideal S64x128 φ₁) (rhs : FVec Ideal S128x128 φ₂) (p : Fin 64) (d : Fin 128) :
    matmul dot_S64x128_S128x128_S64x128_1_0_0_1_n_n none lhs rhs (constant S64x128 .f32 0x00000000#32) (ix2 p d)
      = ∑ k : Fin 128, lhs (ix2 p k) * rhs (ix2 k d) := by
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 p d) ((ValueIdx.contrEquiv1 dot_S64x128_S128x128_S64x128_1_0_0_1_n_n 128 rfl rfl).symm k) = ix2 p k := funext fun a => Fin.ext (by
    match a with
    | ⟨0, _⟩ => exact lhs_coord0 _ _
    | ⟨1, _⟩ => exact (lhs_coord1 _ _).trans hk)
  have er : dot_S64x128_S128x128_S64x128_1_0_0_1_n_n.rhsIdx (ix2 p d) ((ValueIdx.contrEquiv1 dot_S64x128_S128x128_S64x128_1_0_0_1_n_n 128 rfl rfl).symm k) = ix2 k d := funext fun a => Fin.ext (by
    match a with
    | ⟨0, _⟩ => exact (rhs_coord0 _ _).trans hk
    | ⟨1, _⟩ => exact rhs_coord1 _ _)
  rw [el, er]

end Cert.KernelIdeal.Layout

end
-- ==== Proof.AttnRow.lean ====
/-
  One batch row of the pooled attention, on the extended reals.

  A row is a query vector `u` (128 entries), a slab of 200 key vectors `K t` (128 entries each), a length word `n`,
  the projection matrix `W` and its bias `β`. The projected query is `q d = tanh (∑ c, u c · W c d + β d)`; the score
  of key `t` is `(∑ c, q c · K t c) · s` with `s` the one scale word both programs spell; positions `t` not below the
  length (signed comparison of 32-bit words) are replaced by the one pad word both programs spell; the weights are the
  softmax of the padded scores, taken as `exp (a t − max a) / ∑ exp (a t' − max a)`; the pooled vector is
  `o c = ∑ t, w t · K t c`.

  The two programs end differently. One returns `o c + (∑ t, K t c) / 200`; the other adds `o c` to every key entry
  first and returns `(0 + ∑ t, (o c + K t c)) / 200`. When the column `K · c` is finite the two are equal for EVERY
  extended real `o c`: for a finite `o c` this is arithmetic in the reals, and at an infinity both sides are that
  infinity (an infinity absorbs finite summands, and a positive finite divisor keeps it).
-/
import Idealize.ShloMosaic.PureOps.Ideal.Laws

noncomputable section

open scoped BigOperators

namespace Cert.AttnRow

open Idealize.ShloMosaic

/-! ## The constants -/

/-- The word of `200.0` denotes the real `200`. -/
theorem ofBits_200 : Ideal.ofBits .f32 0x43480000#32 = ((200 : ℝ) : EReal) := by
  simp [Ideal.ofBits, Ideal.ieee, -EReal.coe_mul]; norm_num

/-- The word of `-∞` denotes the bottom of the extended reals. -/
theorem ofBits_negInf : Ideal.ofBits .f32 0xFF800000#32 = (⊥ : EReal) := by
  simp [Ideal.ofBits, Ideal.ieee]

/-! ## The row's functions -/

/-- The projected query: `tanh` of the query's affine image. -/
def proj (u : Fin 128 → EReal) (W : Fin 128 → Fin 128 → EReal) (β : Fin 128 → EReal) (d : Fin 128) : EReal :=
  Ideal.tanh ((∑ c : Fin 128, u c * W c d) + β d)

/-- The scaled score of key `t` against the projected query. -/
def score (q : Fin 128 → EReal) (K : Fin 200 → Fin 128 → EReal) (t : Fin 200) : EReal :=
  (∑ c : Fin 128, q c * K t c) * Ideal.ofBits .f32 0x3DB504F3#32

/-- The scores with every position not below the length replaced by the pad value. -/
def masked (n : BitVec 32) (s : Fin 200 → EReal) (t : Fin 200) : EReal :=
  Scalar.select (IntOp.cmpi .slt (BitVec.ofNat 32 t.val) n) (s t) (Ideal.ofBits .f32 0xCF800000#32)

/-- The maximum of the padded scores, folded from `-∞`. -/
def rowMax (a : Fin 200 → EReal) : EReal :=
  (Finset.univ : Finset (Fin 200)).fold max (Ideal.ofBits .f32 0xFF800000#32) a

/-- The shifted exponentials. -/
def expo (a : Fin 200 → EReal) (t : Fin 200) : EReal := Ideal.exp (a t - rowMax a)

/-- A family of 200 values divided by its sum. -/
def normalize (e : Fin 200 → EReal) (t : Fin 200) : EReal := Ideal.div (e t) (∑ t' : Fin 200, e t')

/-- The softmax weights: the shifted exponentials divided by their sum. -/
def weight (a : Fin 200 → EReal) : Fin 200 → EReal := normalize (expo a)

/-- The weighted sum of the keys, one entry per lane. -/
def pooled (w : Fin 200 → EReal) (K : Fin 200 → Fin 128 → EReal) (c : Fin 128) : EReal := ∑ t : Fin 200, w t * K t c

/-- The attention output of one row at lane `c`. -/
def attn (u : Fin 128 → EReal) (K : Fin 200 → Fin 128 → EReal) (n : BitVec 32) (W : Fin 128 → Fin 128 → EReal)
    (β : Fin 128 → EReal) (c : Fin 128) : EReal :=
  pooled (weight (masked n (score (proj u W β) K))) K c

/-- The first ending: the pooled entry plus the mean of the key column. -/
def addMean (o : EReal) (col : Fin 200 → EReal) : EReal :=
  o + Ideal.div (∑ t : Fin 200, col t) (Ideal.ofBits .f32 0x43480000#32)

/-- The second ending: the mean of the key column shifted entrywise by the pooled entry, summed from zero. -/
def meanAdd (o : EReal) (col : Fin 200 → EReal) : EReal :=
  Ideal.div (Ideal.ofBits .f32 0x00000000#32 + ∑ t : Fin 200, (o + col t)) (Ideal.ofBits .f32 0x43480000#32)

/-! ## The two endings agree on a finite column -/

/-- A sum of coerced reals is the coerced sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division by `200` is multiplication by the real `1/200`. -/
theorem div_200 (x : EReal) : Ideal.div x (Ideal.ofBits .f32 0x43480000#32) = x * ((1 / 200 : ℝ) : EReal) := by
  rw [ofBits_200]; exact Ideal.div_coe (by norm_num) x

/-- For a finite column the two endings agree, whatever extended real the pooled entry is. -/
theorem meanAdd_eq_addMean (o : EReal) (col : Fin 200 → ℝ) :
    meanAdd o (fun t => (col t : EReal)) = addMean o (fun t => (col t : EReal)) := by
  unfold meanAdd addMean
  rw [div_200, div_200, Ideal.ofBits_zero_f32, zero_add, coe_sum]
  induction o using EReal.rec with
  | bot =>
    have h : (∑ t : Fin 200, ((⊥ : EReal) + (col t : EReal))) = ⊥ := by
      rw [Finset.sum_congr rfl (fun t _ => EReal.bot_add _)]
      rw [Finset.sum_const, Finset.card_univ, Fintype.card_fin, EReal.nsmul_eq_mul]
      have h200 : ((200 : ℕ) : EReal) = 200 := by norm_num
      rw [h200]; exact EReal.mul_bot_of_pos (by norm_num)
    rw [h, EReal.bot_add, EReal.bot_mul_coe_of_pos (by norm_num)]
  | top =>
    have h : (∑ t : Fin 200, ((⊤ : EReal) + (col t : EReal))) = ⊤ := by
      rw [Finset.sum_congr rfl (fun t _ => EReal.top_add_coe _)]
      rw [Finset.sum_const, Finset.card_univ, Fintype.card_fin, EReal.nsmul_eq_mul]
      have h200 : ((200 : ℕ) : EReal) = 200 := by norm_num
      rw [h200]; exact EReal.mul_top_of_pos (by norm_num)
    rw [h, EReal.top_mul_coe_of_pos (by norm_num), ← EReal.coe_mul, EReal.top_add_coe]
  | coe r =>
    have h : (∑ t : Fin 200, ((r : EReal) + (col t : EReal))) = ((∑ t : Fin 200, (r + col t) : ℝ) : EReal) := by
      rw [← coe_sum]; exact Finset.sum_congr rfl fun t _ => (EReal.coe_add _ _).symm
    rw [h, ← EReal.coe_mul, ← EReal.coe_mul, ← EReal.coe_add, Finset.sum_add_distrib, Finset.sum_const,
      Finset.card_univ, Fintype.card_fin]
    congr 1
    simp only [nsmul_eq_mul]
    ring

end Cert.AttnRow

end
-- ==== Proof.KernelRows.lean ====
/-
  The kernel's body read one block row at a time.

  The body computes, from a block of 64 query rows, the projection matrix, its bias, the block's 64 key slabs and its
  64 length words: the projected queries; the scaled scores; the padded scores; the shifted exponentials; the weights;
  and the pooled vectors. Each of these stages, read at block row `p`, is the corresponding function of that row alone
  (its query vector, its key slab, its length word) — the same functions the reference's stages are of a batch row.
  The stages below are the body's own operations, regrouped; that their composition is the body's value is by unfolding.
-/
import proofs.«147762_j30296699306117_2_alg».proof.Proof.Gen.KernelIdeal.Skeleton
import proofs.«147762_j30296699306117_2_alg».proof.Proof.KernelLayout
import proofs.«147762_j30296699306117_2_alg».proof.Proof.AttnRow

noncomputable section

open scoped BigOperators

namespace Cert.KernelIdeal.Rows

open Cert.KernelIdeal Cert.KernelIdeal.Gen Cert.KernelIdeal.Layout Idealize.ShloMosaic Idealize.ShloMosaic.ValueIdx Cert

/-! ## Pointwise operations read at an index -/

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl
theorem cmpi_apply {s : Shape} {w : Nat} (p : CmpIPredicate) (a b : IVec s w) (i : s.Idx) :
    cmpi p a b i = IntOp.cmpi p (a i) (b i) := rfl

/-! ## The body's stages -/

section Stages
variable {F : FTy → Type} [FloatOps F]

/-- The projected queries of the block: `tanh (queries · W + bias)`. -/
def blockQ (v0 : Vec F S64x1x128 .f32) (v2 : Vec F S128x128 .f32) (v6 : Vec F S128 .f32) : FVec F S64x128 .f32 :=
  have v1 : FVec F S64x128 .f32 := shapeCast S64x128 v0 shapeCasts_S64x1x128_S64x128
  have v3 : FVec F S128x128 .bf16 := truncf .bf16 v2 bitsLt_bf16_f32
  have v4 : FVec F S64x128 .bf16 := truncf .bf16 v1 bitsLt_bf16_f32
  have cst : FVec F S64x128 .f32 := constant S64x128 .f32 0x00000000#32
  have v5 : FVec F S64x128 .f32 := matmul dot_S64x128_S128x128_S64x128_1_0_0_1_n_n none v4 v3 cst
  have v7 : FVec F S1x128 .f32 := shapeCast S1x128 v6 shapeCasts_S128_S1x128
  have v8 : FVec F S64x128 .f32 := broadcastTo S64x128 v7 broadcasts_S1x128_S64x128
  have v9 : FVec F S64x128 .f32 := addf v5 v8
  tanh v9

/-- The scaled scores of the block's keys against the projected queries. -/
def blockS (v10 : FVec F S64x128 .f32) (v11 : Vec F S64x200x128 .f32) : FVec F S64x200x1 .f32 :=
  have v12 : FVec F S64x1x128 .f32 := shapeCast S64x1x128 v10 shapeCasts_S64x128_S64x1x128
  have v13 : FVec F S64x200x128 .f32 := broadcastTo S64x200x128 v12 broadcasts_S64x1x128_S64x200x128
  have v14 : FVec F S64x200x128 .f32 := mulf v13 v11
  have v15 : FVec F S64x200 .f32 := multiReduction .add [2] S64x200 v14 0x00000000#32 reduces_S64x200x128_S64x200 (.inl rfl) rfl
  have v16 : FVec F S64x200x1 .f32 := shapeCast S64x200x1 v15 shapeCasts_S64x200_S64x200x1
  have cst_9 : F .f32 := Scalar.ofBits .f32 0x3DB504F3#32
  have v17 : FVec F S64x200x1 .f32 := broadcast S64x200x1 cst_9
  mulf v16 v17

/-- The scores with the positions not below each row's length replaced by the pad value. -/
def blockA (v18 : FVec F S64x200x1 .f32) (v19 : Vec F S64x1 .i32) : FVec F S64x200x1 .f32 :=
  have v20 : IVec S64x1x1 32 := shapeCast S64x1x1 v19 shapeCasts_S64x1_S64x1x1
  have v21 : IVec S64x200x1 32 := iota .tc S64x200x1 32 [1] iota_S64x200x1_d1_w32
  have v22 : IVec S64x200x1 32 := broadcastTo S64x200x1 v20 broadcasts_S64x1x1_S64x200x1
  have v23 : IVec S64x200x1 1 := cmpi .slt v21 v22
  have cst_12 : F .f32 := Scalar.ofBits .f32 0xCF800000#32
  have v24 : FVec F S64x200x1 .f32 := broadcast S64x200x1 cst_12
  select v23 v18 v24

/-- The exponentials of the padded scores shifted by each row's maximum. -/
def blockE (v25 : FVec F S64x200x1 .f32) : FVec F S64x200x1 .f32 :=
  have v26 : FVec F S64x1 .f32 := multiReduction .maximumf [1] S64x1 v25 0xFF800000#32 reduces_S64x200x1_S64x1 (.inl rfl) rfl
  have v27 : FVec F S64x1x1 .f32 := shapeCast S64x1x1 v26 shapeCasts_S64x1_S64x1x1
  have v28 : FVec F S64x200x1 .f32 := broadcastTo S64x200x1 v27 broadcasts_S64x1x1_S64x200x1
  have v29 : FVec F S64x200x1 .f32 := subf v25 v28
  exp v29

/-- Each row's exponentials divided by their sum. -/
def blockW (v30 : FVec F S64x200x1 .f32) : FVec F S64x200x1 .f32 :=
  have v31 : FVec F S64x1 .f32 := multiReduction .add [1] S64x1 v30 0x00000000#32 reduces_S64x200x1_S64x1 (.inl rfl) rfl
  have v32 : FVec F S64x1x1 .f32 := shapeCast S64x1x1 v31 shapeCasts_S64x1_S64x1x1
  have v33 : FVec F S64x200x1 .f32 := broadcastTo S64x200x1 v32 broadcasts_S64x1x1_S64x200x1
  divf v30 v33

/-- The weighted sums of each row's keys. -/
def blockO (v34 : FVec F S64x200x1 .f32) (v11 : Vec F S64x200x128 .f32) : FVec F S64x1x128 .f32 :=
  have v35 : FVec F S64x200x128 .f32 := broadcastTo S64x200x128 v34 broadcasts_S64x200x1_S64x200x128
  have v36 : FVec F S64x200x128 .f32 := mulf v35 v11
  have v37 : FVec F S64x128 .f32 := multiReduction .add [1] S64x128 v36 0x00000000#32 reduces_S64x200x128_S64x128 (.inl rfl) rfl
  shapeCast S64x1x128 v37 shapeCasts_S64x128_S64x1x128

/-- The body's pooled block is the composition of the stages. -/
theorem pay2_eq (v0 : Vec F S64x1x128 .f32) (v2 : Vec F S128x128 .f32) (v6 : Vec F S128 .f32) (v11 : Vec F S64x200x128 .f32)
    (v19 : Vec F S64x1 .i32) :
    k0_pay2 v0 v2 v6 v11 v19 = blockO (blockW (blockE (blockA (blockS (blockQ v0 v2 v6) v11) v19))) v11 := rfl

end Stages

/-! ## Each stage at a block row -/

/-- The projected query of block row `p` at lane `d`. -/
theorem blockQ_apply (v0 : Vec Ideal S64x1x128 .f32) (v2 : Vec Ideal S128x128 .f32) (v6 : Vec Ideal S128 .f32) (p : Fin 64) (d : Fin 128) :
    blockQ v0 v2 v6 (ix2 p d)
      = AttnRow.proj (fun c => v0 (ix3 p (0 : Fin 1) c)) (fun c e => v2 (ix2 c e)) (fun e => v6 (ix1 e)) d := by
  unfold blockQ
  rw [tanh_apply, addf_apply, matmul_rows, bcast_bias]
  simp only [truncf_apply, cast_drop_mid]
  rfl

set_option backward.isDefEq.respectTransparency.types false in
/-- The scaled score of position `t` of block row `p`. -/
theorem blockS_apply (v10 : FVec Ideal S64x128 .f32) (v11 : Vec Ideal S64x200x128 .f32) (p : Fin 64) (t : Fin 200) :
    blockS v10 v11 (ix3 p t (0 : Fin 1)) = AttnRow.score (fun c => v10 (ix2 p c)) (fun t c => v11 (ix3 p t c)) t := by
  unfold blockS
  rw [mulf_apply, broadcast_apply, cast_add_last, sum_lanes]
  simp only [mulf_apply, bcast_positions, cast_add_mid]
  rfl

/-- The padded score of position `t` of block row `p`. -/
theorem blockA_apply (v18 : FVec Ideal S64x200x1 .f32) (v19 : Vec Ideal S64x1 .i32) (p : Fin 64) (t : Fin 200) :
    blockA v18 v19 (ix3 p t (0 : Fin 1))
      = AttnRow.masked (v19 (ix2 p (0 : Fin 1))) (fun t => v18 (ix3 p t (0 : Fin 1))) t := by
  unfold blockA
  rw [select_apply, cmpi_apply, iota_positions, bcast_row_scalar, cast_add_two, broadcast_apply]
  rfl

set_option backward.isDefEq.respectTransparency.types false in
/-- The shifted exponential of position `t` of block row `p`. -/
theorem blockE_apply (v25 : FVec Ideal S64x200x1 .f32) (p : Fin 64) (t : Fin 200) :
    blockE v25 (ix3 p t (0 : Fin 1)) = AttnRow.expo (fun t => v25 (ix3 p t (0 : Fin 1))) t := by
  unfold blockE
  rw [exp_apply, subf_apply, bcast_row_scalar, cast_add_two, max_positions_scalar]
  rfl

set_option backward.isDefEq.respectTransparency.types false in
/-- The normalized value of position `t` of block row `p`. -/
theorem blockW_apply (v30 : FVec Ideal S64x200x1 .f32) (p : Fin 64) (t : Fin 200) :
    blockW v30 (ix3 p t (0 : Fin 1)) = AttnRow.normalize (fun t => v30 (ix3 p t (0 : Fin 1))) t := by
  unfold blockW
  rw [divf_apply, bcast_row_scalar, cast_add_two, sum_positions_scalar]
  rfl

set_option backward.isDefEq.respectTransparency.types false in
/-- The pooled entry of block row `p` at lane `c`. -/
theorem blockO_apply (v34 : FVec Ideal S64x200x1 .f32) (v11 : Vec Ideal S64x200x128 .f32) (p : Fin 64) (q : Fin 1) (c : Fin 128) :
    blockO v34 v11 (ix3 p q c)
      = AttnRow.pooled (fun t => v34 (ix3 p t (0 : Fin 1))) (fun t c => v11 (ix3 p t c)) c := by
  unfold blockO
  rw [cast_add_mid, sum_positions]
  simp only [mulf_apply, bcast_lanes]
  rfl

/-! ## The body's pooled block at a block row -/

/-- THE BODY'S POOLED BLOCK at block row `p` and lane `c` is the attention output of that row. -/
theorem pay2_row (v0 : Vec Ideal S64x1x128 .f32) (v2 : Vec Ideal S128x128 .f32) (v6 : Vec Ideal S128 .f32)
    (v11 : Vec Ideal S64x200x128 .f32) (v19 : Vec Ideal S64x1 .i32) (p : Fin 64) (q : Fin 1) (c : Fin 128) :
    k0_pay2 v0 v2 v6 v11 v19 (ix3 p q c)
      = AttnRow.attn (fun c => v0 (ix3 p (0 : Fin 1) c)) (fun t c => v11 (ix3 p t c)) (v19 (ix2 p (0 : Fin 1)))
          (fun c e => v2 (ix2 c e)) (fun e => v6 (ix1 e)) c := by
  have hq : (fun c => blockQ v0 v2 v6 (ix2 p c))
      = AttnRow.proj (fun c => v0 (ix3 p (0 : Fin 1) c)) (fun c e => v2 (ix2 c e)) (fun e => v6 (ix1 e)) :=
    funext fun c => blockQ_apply v0 v2 v6 p c
  have hs : (fun t => blockS (blockQ v0 v2 v6) v11 (ix3 p t (0 : Fin 1)))
      = AttnRow.score (AttnRow.proj (fun c => v0 (ix3 p (0 : Fin 1) c)) (fun c e => v2 (ix2 c e)) (fun e => v6 (ix1 e)))
          (fun t c => v11 (ix3 p t c)) :=
    funext fun t => by rw [blockS_apply, hq]
  have ha : (fun t => blockA (blockS (blockQ v0 v2 v6) v11) v19 (ix3 p t (0 : Fin 1)))
      = AttnRow.masked (v19 (ix2 p (0 : Fin 1)))
          (AttnRow.score (AttnRow.proj (fun c => v0 (ix3 p (0 : Fin 1) c)) (fun c e => v2 (ix2 c e)) (fun e => v6 (ix1 e)))
            (fun t c => v11 (ix3 p t c))) :=
    funext fun t => by rw [blockA_apply, hs]
  have he : (fun t => blockE (blockA (blockS (blockQ v0 v2 v6) v11) v19) (ix3 p t (0 : Fin 1)))
      = AttnRow.expo (AttnRow.masked (v19 (ix2 p (0 : Fin 1)))
          (AttnRow.score (AttnRow.proj (fun c => v0 (ix3 p (0 : Fin 1) c)) (fun c e => v2 (ix2 c e)) (fun e => v6 (ix1 e)))
            (fun t c => v11 (ix3 p t c)))) :=
    funext fun t => by rw [blockE_apply, ha]
  have hw : (fun t => blockW (blockE (blockA (blockS (blockQ v0 v2 v6) v11) v19)) (ix3 p t (0 : Fin 1)))
      = AttnRow.weight (AttnRow.masked (v19 (ix2 p (0 : Fin 1)))
          (AttnRow.score (AttnRow.proj (fun c => v0 (ix3 p (0 : Fin 1) c)) (fun c e => v2 (ix2 c e)) (fun e => v6 (ix1 e)))
            (fun t c => v11 (ix3 p t c)))) :=
    funext fun t => by rw [blockW_apply, he]; rfl
  rw [pay2_eq, blockO_apply, hw]
  rfl

end Cert.KernelIdeal.Rows

end
-- ==== Proof.Pooled.lean ====
/-
  The result array as one function of the argument arrays, in the two programs' forms.

  Entry `(b, ·, c)` of the result depends on batch row `b` only: that row's query vector, key slab and length word, and
  the projection matrix and bias. The kernel's form adds the mean of the key column `c` to the pooled entry; the
  reference's form takes the mean of the column shifted by the pooled entry. When every key entry is a real the two
  forms are the same array.
-/
import proofs.«147762_j30296699306117_2_alg».proof.Proof.AttnRow
import Idealize.ShloMosaic.Lib.ValueIdx

noncomputable section

namespace Cert.Pooled

open Idealize.ShloMosaic Idealize.ShloMosaic.ValueIdx Cert

variable (a0 : (⟨3, ![2048, 1, 128]⟩ : Shape).Idx → EReal) (a1 : (⟨3, ![2048, 200, 128]⟩ : Shape).Idx → EReal)
  (a2 : (⟨2, ![2048, 1]⟩ : Shape).Idx → BitVec 32) (a3 : (⟨2, ![128, 128]⟩ : Shape).Idx → EReal)
  (a4 : (⟨1, ![128]⟩ : Shape).Idx → EReal)

/-- The attention output of batch row `b` at lane `c`. -/
def pooledRow (b : Fin 2048) (c : Fin 128) : EReal :=
  AttnRow.attn (fun c => a0 (ix3 b (0 : Fin 1) c)) (fun t c => a1 (ix3 b t c)) (a2 (ix2 b (0 : Fin 1)))
    (fun c e => a3 (ix2 c e)) (fun e => a4 (ix1 e)) c

/-- The kernel's form of the result at row `b` and lane `c`. -/
def kernelRowForm (b : Fin 2048) (c : Fin 128) : EReal :=
  AttnRow.addMean (pooledRow a0 a1 a2 a3 a4 b c) (fun t => a1 (ix3 b t c))

/-- The reference's form of the result at row `b` and lane `c`. -/
def referenceRowForm (b : Fin 2048) (c : Fin 128) : EReal :=
  AttnRow.meanAdd (pooledRow a0 a1 a2 a3 a4 b c) (fun t => a1 (ix3 b t c))

/-- The kernel's form of the result array. -/
def kernelForm : (⟨3, ![2048, 1, 128]⟩ : Shape).Idx → EReal := fun i => kernelRowForm a0 a1 a2 a3 a4 (i 0) (i 2)

/-- The reference's form of the result array. -/
def referenceForm : (⟨3, ![2048, 1, 128]⟩ : Shape).Idx → EReal := fun i => referenceRowForm a0 a1 a2 a3 a4 (i 0) (i 2)

theorem kernelForm_apply (b : Fin 2048) (q : Fin 1) (c : Fin 128) :
    kernelForm a0 a1 a2 a3 a4 (ix3 b q c) = kernelRowForm a0 a1 a2 a3 a4 b c := rfl

theorem referenceForm_apply (b : Fin 2048) (q : Fin 1) (c : Fin 128) :
    referenceForm a0 a1 a2 a3 a4 (ix3 b q c) = referenceRowForm a0 a1 a2 a3 a4 b c := rfl

/-- When every key entry is a real, the two forms agree at every row and lane. -/
theorem referenceRowForm_eq (hfin : ∀ j, ∃ r : ℝ, a1 j = (r : EReal)) (b : Fin 2048) (c : Fin 128) :
    referenceRowForm a0 a1 a2 a3 a4 b c = kernelRowForm a0 a1 a2 a3 a4 b c := by
  unfold referenceRowForm kernelRowForm
  choose col hcol using fun t : Fin 200 => hfin (ix3 b t c)
  have e : (fun t : Fin 200 => a1 (ix3 b t c)) = fun t => (col t : EReal) := funext hcol
  rw [e]
  exact AttnRow.meanAdd_eq_addMean _ col

/-- So the two forms are one array. -/
theorem referenceForm_eq (hfin : ∀ j, ∃ r : ℝ, a1 j = (r : EReal)) :
    referenceForm a0 a1 a2 a3 a4 = kernelForm a0 a1 a2 a3 a4 :=
  funext fun i => referenceRowForm_eq a0 a1 a2 a3 a4 hfin (i 0) (i 2)

end Cert.Pooled

end
-- ==== Proof.KernelArray.lean ====
/-
  From the blocks to the array.

  Grid point `t` works on batch rows `64·t … 64·t + 63`: its query, key, length and result blocks are those rows of the
  arrays, and the projection matrix and bias are read whole at every point. What the body leaves at block entry
  `(p, ·, c)` is the pooled entry of block row `p` plus the mean of its key column `c`; block row `p` of point `t` is batch row
  `64·t + p`, so the block written back is that block of the kernel's form of the result array. The 32 blocks cover the
  array (row `r` is in the block of point `r / 64`), so the array ends as the kernel's form.
-/
import proofs.«147762_j30296699306117_2_alg».proof.Proof.Gen.KernelIdeal.Value
import proofs.«147762_j30296699306117_2_alg».proof.Proof.KernelRows
import proofs.«147762_j30296699306117_2_alg».proof.Proof.Pooled

noncomputable section

namespace Cert.KernelIdeal.Whole

open Cert.KernelIdeal Cert.KernelIdeal.Gen Idealize.ShloMosaic Idealize.ShloMosaic.TcCoe Idealize.SL.Sem
open Idealize.ShloMosaic.ValueIdx Cert
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The batch row that block row `p` of grid point `t` is. -/
def rowOf (t : Fin cfg0.N) (p : Fin 64) : Fin 2048 :=
  ⟨t.val * 64 + p.val, by have ht : t.val < 32 := t.isLt; have hp := p.isLt; omega⟩

/-- The index maps, decided over the 32 grid points: the query, key, length and result windows step with the point along
    the batch axis and stay at block 0 on the others; the matrix and the bias stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-! ## The input blocks read at a block row -/

theorem blk0 (c : Dev nD) (t : Fin cfg0.N) (p : Fin 64) (k : Fin 128) :
    iblk m c 0 t (ix3 p (0 : Fin 1) k) = V m c main_arg0 (ix3 (rowOf t p) (0 : Fin 1) k) := by
  obtain ⟨e0, e1, e2, -⟩ := idx_facts t
  show V m c main_arg0 (((cfg0.win 0).blk t).view.emb (ix3 p (0 : Fin 1) k)) = V m c main_arg0 (ix3 (rowOf t p) (0 : Fin 1) k)
  have h : ((cfg0.win 0).blk t).view.emb (ix3 p (0 : Fin 1) k) = ix3 (rowOf t p) (0 : Fin 1) k := by
    funext a; apply Fin.ext
    match a with
    | ⟨0, _⟩ => show win0_0.index t (0 : Fin 3) * 64 + 1 * p.val = t.val * 64 + p.val; omega
    | ⟨1, _⟩ => show win0_0.index t (1 : Fin 3) * 1 + 1 * 0 = 0; omega
    | ⟨2, _⟩ => show win0_0.index t (2 : Fin 3) * 128 + 1 * k.val = k.val; omega
  rw [h]

theorem blk1 (c : Dev nD) (t : Fin cfg0.N) (p : Fin 64) (s : Fin 200) (k : Fin 128) :
    iblk m c 1 t (ix3 p s k) = V m c main_arg1 (ix3 (rowOf t p) s k) := by
  obtain ⟨-, -, -, e0, e1, e2, -⟩ := idx_facts t
  show V m c main_arg1 (((cfg0.win 1).blk t).view.emb (ix3 p s k)) = V m c main_arg1 (ix3 (rowOf t p) s k)
  have h : ((cfg0.win 1).blk t).view.emb (ix3 p s k) = ix3 (rowOf t p) s k := by
    funext a; apply Fin.ext
    match a with
    | ⟨0, _⟩ => show win0_1.index t (0 : Fin 3) * 64 + 1 * p.val = t.val * 64 + p.val; omega
    | ⟨1, _⟩ => show win0_1.index t (1 : Fin 3) * 200 + 1 * s.val = s.val; omega
    | ⟨2, _⟩ => show win0_1.index t (2 : Fin 3) * 128 + 1 * k.val = k.val; omega
  rw [h]

theorem blk2 (c : Dev nD) (t : Fin cfg0.N) (p : Fin 64) :
    iblk m c 2 t (ix2 p (0 : Fin 1)) = V m c main_arg2 (ix2 (rowOf t p) (0 : Fin 1)) := by
  obtain ⟨-, -, -, -, -, -, e0, e1, -⟩ := idx_facts t
  show V m c main_arg2 (((cfg0.win 2).blk t).view.emb (ix2 p (0 : Fin 1))) = V m c main_arg2 (ix2 (rowOf t p) (0 : Fin 1))
  have h : ((cfg0.win 2).blk t).view.emb (ix2 p (0 : Fin 1)) = ix2 (rowOf t p) (0 : Fin 1) := by
    funext a; apply Fin.ext
    match a with
    | ⟨0, _⟩ => show win0_2.index t (0 : Fin 2) * 64 + 1 * p.val = t.val * 64 + p.val; omega
    | ⟨1, _⟩ => show win0_2.index t (1 : Fin 2) * 1 + 1 * 0 = 0; omega
  rw [h]

theorem blk3 (c : Dev nD) (t : Fin cfg0.N) (k d : Fin 128) :
    iblk m c 3 t (ix2 k d) = V m c main_arg3 (ix2 k d) := by
  obtain ⟨-, -, -, -, -, -, -, -, e0, e1, -⟩ := idx_facts t
  show V m c main_arg3 (((cfg0.win 3).blk t).view.emb (ix2 k d)) = V m c main_arg3 (ix2 k d)
  have h : ((cfg0.win 3).blk t).view.emb (ix2 k d) = ix2 k d := by
    funext a; apply Fin.ext
    match a with
    | ⟨0, _⟩ => show win0_3.index t (0 : Fin 2) * 128 + 1 * k.val = k.val; omega
    | ⟨1, _⟩ => show win0_3.index t (1 : Fin 2) * 128 + 1 * d.val = d.val; omega
  rw [h]

theorem blk4 (c : Dev nD) (t : Fin cfg0.N) (d : Fin 128) :
    iblk m c 4 t (ix1 d) = V m c main_arg4 (ix1 d) := by
  obtain ⟨-, -, -, -, -, -, -, -, -, -, e0, -⟩ := idx_facts t
  show V m c main_arg4 (((cfg0.win 4).blk t).view.emb (ix1 d)) = V m c main_arg4 (ix1 d)
  have h : ((cfg0.win 4).blk t).view.emb (ix1 d) = ix1 d := by
    funext a; apply Fin.ext
    match a with
    | ⟨0, _⟩ => show win0_4.index t (0 : Fin 1) * 128 + 1 * d.val = d.val; omega
  rw [h]

theorem emb5 (t : Fin cfg0.N) (p : Fin 64) (q : Fin 1) (k : Fin 128) :
    ((cfg0.win 5).blk t).view.emb (ix3 p q k) = ix3 (rowOf t p) q k := by
  obtain ⟨-, -, -, -, -, -, -, -, -, -, -, e0, e1, e2⟩ := idx_facts t
  funext a; apply Fin.ext
  match a with
  | ⟨0, _⟩ => show win0_5.index t (0 : Fin 3) * 64 + 1 * p.val = t.val * 64 + p.val; omega
  | ⟨1, _⟩ => show win0_5.index t (1 : Fin 3) * 1 + 1 * q.val = q.val; omega
  | ⟨2, _⟩ => show win0_5.index t (2 : Fin 3) * 128 + 1 * k.val = k.val; omega

/-! ## What the body leaves in the result block -/

set_option backward.isDefEq.respectTransparency.types false in
/-- At block entry `(p, ·, c)`: the pooled entry of block row `p` plus the mean of its key column `c`. -/
theorem out_row (x0 : Vec Ideal S64x1x128 .f32) (x1 : Vec Ideal S64x200x128 .f32) (x2 : Vec Ideal S64x1 .i32)
    (x3 : Vec Ideal S128x128 .f32) (x4 : Vec Ideal S128 .f32) (p : Fin 64) (q : Fin 1) (c : Fin 128) :
    out0_5 x0 x1 x2 x3 x4 (ix3 p q c)
      = AttnRow.addMean
          (AttnRow.attn (fun c => x0 (ix3 p (0 : Fin 1) c)) (fun t c => x1 (ix3 p t c)) (x2 (ix2 p (0 : Fin 1)))
            (fun c e => x3 (ix2 c e)) (fun e => x4 (ix1 e)) c)
          (fun t => x1 (ix3 p t c)) := by
  unfold out0_5
  rw [Value.canon5_eq]
  simp only [View.ld_unit_zero (S := S64x1x128) hz3, View.ld_unit_zero (S := S128x128) hz2, View.ld_unit_zero (S := S128) hz1,
    View.ld_unit_zero (S := S64x200x128) hz3, View.ld_unit_zero (S := S64x1) hz2]
  show k0_pay2 x0 x3 x4 x1 x2 (Value.ix5_0 (ix3 p q c))
      + Ideal.div (multiReduction (F := Ideal) .add [1] S64x128 x1 0x00000000#32 reduces_S64x200x128_S64x128 (.inl rfl) rfl (Value.ix5_1 (ix3 p q c)))
          (Ideal.ofBits .f32 0x43480000#32) = _
  have e0 : Value.ix5_0 (ix3 p q c) = ix3 p (0 : Fin 1) c := funext fun a => Fin.ext (by
    match a with | ⟨0, _⟩ => rfl | ⟨1, _⟩ => rfl | ⟨2, _⟩ => rfl)
  have e1 : Value.ix5_1 (ix3 p q c) = ix2 p c := funext fun a => Fin.ext (by
    match a with | ⟨0, _⟩ => rfl | ⟨1, _⟩ => rfl)
  rw [e0, e1, Rows.pay2_row, Layout.sum_positions]
  rfl

/-! ## The block written back, the cover, the array -/

/-- WHAT POINT `t` WRITES BACK is block `t` of the kernel's form of the result, of the argument arrays as the region
    finds them. -/
theorem flushed5_eq (c : Dev nD) (t : Fin cfg0.N) :
    (dats m 0 c).flushed 5 t = ((cfg0.win 5).blk t).view.read (Elt Ideal)
      (Pooled.kernelForm (V m c main_arg0) (V m c main_arg1) (V m c main_arg2) (V m c main_arg3) (V m c main_arg4)) := by
  rw [Value.flushed5]
  funext j
  obtain ⟨p, q, k, rfl⟩ : ∃ (p : Fin 64) (q : Fin 1) (k : Fin 128), j = ix3 p q k := ⟨j 0, j 1, j 2, eq_ix3 j⟩
  show out0_5 (iblk m c 0 t) (iblk m c 1 t) (iblk m c 2 t) (iblk m c 3 t) (iblk m c 4 t) (ix3 p q k)
      = Pooled.kernelForm (V m c main_arg0) (V m c main_arg1) (V m c main_arg2) (V m c main_arg3) (V m c main_arg4)
          (((cfg0.win 5).blk t).view.emb (ix3 p q k))
  refine (out_row (iblk m c 0 t) (iblk m c 1 t) (iblk m c 2 t) (iblk m c 3 t) (iblk m c 4 t) p q k).trans ?_
  rw [emb5, Pooled.kernelForm_apply]
  simp only [blk0, blk1, blk2, blk3, blk4]
  rfl

/-- An index of the array is in point `t`'s block iff each coordinate is in the block's range on its axis. -/
theorem mem_blk5 (t : Fin cfg0.N) (i : S2048x1x128.Idx) :
    i ∈ ((cfg0.win 5).blk t).view.set ↔ ∀ a : Fin 3, win0_5.index t a * S64x1x128.size a ≤ (i a).val
      ∧ (i a).val < win0_5.index t a * S64x1x128.size a + S64x1x128.size a := by
  show i ∈ ((View.whole main_v0).slice (win0_5.rect t)).set ↔ _
  rw [View.set_slice_whole, Rect.mem_set_unit]
  exact Iff.rfl

/-- Every index of the result is in the block of the point its batch row falls in. -/
theorem cover5 (i : S2048x1x128.Idx) :
    ∃ t : Fin cfg0.N, (cfg0.win 5).flush t = true ∧ i ∈ ((cfg0.win 5).blk t).view.set := by
  have hi0 : (i 0).val < 2048 := (i 0).isLt
  have hi1 : (i 1).val < 1 := (i 1).isLt
  have hi2 : (i 2).val < 128 := (i 2).isLt
  have hlt : (i 0).val / 64 < 32 := by omega
  obtain ⟨-, -, -, -, -, -, -, -, -, -, -, e0, e1, e2⟩ := idx_facts ⟨(i 0).val / 64, hlt⟩
  refine ⟨⟨(i 0).val / 64, hlt⟩, flush0_5 _, ?_⟩
  rw [mem_blk5]
  intro a
  match a with
  | ⟨0, _⟩ =>
    show win0_5.index ⟨(i 0).val / 64, hlt⟩ (0 : Fin 3) * 64 ≤ (i 0).val
      ∧ (i 0).val < win0_5.index ⟨(i 0).val / 64, hlt⟩ (0 : Fin 3) * 64 + 64
    rw [e0]; show (i 0).val / 64 * 64 ≤ (i 0).val ∧ (i 0).val < (i 0).val / 64 * 64 + 64; omega
  | ⟨1, _⟩ =>
    show win0_5.index ⟨(i 0).val / 64, hlt⟩ (1 : Fin 3) * 1 ≤ (i 1).val
      ∧ (i 1).val < win0_5.index ⟨(i 0).val / 64, hlt⟩ (1 : Fin 3) * 1 + 1
    omega
  | ⟨2, _⟩ =>
    show win0_5.index ⟨(i 0).val / 64, hlt⟩ (2 : Fin 3) * 128 ≤ (i 2).val
      ∧ (i 2).val < win0_5.index ⟨(i 0).val / 64, hlt⟩ (2 : Fin 3) * 128 + 128
    omega

/-- THE ARRAY after the run is the kernel's form of the result of the argument arrays. -/
theorem final5 (c : Dev nD) :
    (dats m 0 c).arrAt 5 cfg0.N
      = Pooled.kernelForm (V m c main_arg0) (V m c main_arg1) (V m c main_arg2) (V m c main_arg3) (V m c main_arg4) :=
  (dats m 0 c).arrAt_eq_of_cover 5 _ (fun t _ => flushed5_eq m c t) cover5

/-- The kernel's run: the result array ends as the kernel's form of the argument arrays, which are unchanged. -/
theorem run : θ_run defs (onTc (τ := τ) (main (F := Ideal))) ⟨m, fun _ => 0, ρ⟩ fun r => ∀ c : Dev nD,
      r.2.mem ((c : Thread nD τ).loc main_v0)
        = Pooled.kernelForm (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (Value.run_blocks m ρ)

end Cert.KernelIdeal.Whole

end
-- ==== Proof.RefRows.lean ====
/-
  The reference program read one batch row at a time.

  Every stage of the reference at batch row `b` depends on that row's query vector, that row's slab of keys, that
  row's length word, and on the projection matrix and its bias, and on nothing else. Stage by stage it is the
  corresponding function of the row: the projected query, the scaled scores, the padded scores, their maximum (the
  extra maximum against `-∞` changes nothing), the shifted exponentials, their sum (summed from zero), the weights, the
  pooled vector; and the result is the mean over the 200 positions of the key entries shifted by the pooled entry.
-/
import proofs.«147762_j30296699306117_2_alg».proof.Proof.Gen.ReferenceIdeal.Read
import proofs.«147762_j30296699306117_2_alg».proof.Proof.AttnRow
import proofs.«147762_j30296699306117_2_alg».proof.Proof.Pooled

noncomputable section

open scoped BigOperators

namespace Cert.ReferenceIdeal.Rows

open Cert.ReferenceIdeal Cert.ReferenceIdeal.Gen Cert.ReferenceIdeal.Read Idealize.ShloMosaic Idealize.ShloMosaic.ValueIdx Cert

variable (x0 : (⟨S2048x1x128, .f32⟩ : BufTy).Contents (Elt Ideal)) (x1 : (⟨S2048x200x128, .f32⟩ : BufTy).Contents (Elt Ideal))
  (x2 : (⟨S2048x1, .i32⟩ : BufTy).Contents (Elt Ideal)) (x3 : (⟨S128x128, .f32⟩ : BufTy).Contents (Elt Ideal))
  (x4 : (⟨S128, .f32⟩ : BufTy).Contents (Elt Ideal))

/-- The maximum against `-∞` is the other operand. -/
theorem max_negInf (x : EReal) : max (Ideal.ofBits .f32 0xFF800000#32) x = x := by
  rw [AttnRow.ofBits_negInf]; exact max_eq_right bot_le

/-- Row `b`'s projected query. -/
abbrev qRow (b : Fin 2048) : Fin 128 → EReal :=
  AttnRow.proj (fun c => x0 (ix3 b (0 : Fin 1) c)) (fun c e => x3 (ix2 c e)) (fun e => x4 (ix1 e))

/-- Row `b`'s padded scores. -/
abbrev aRow (b : Fin 2048) : Fin 200 → EReal :=
  AttnRow.masked (x2 (ix2 b (0 : Fin 1))) (AttnRow.score (qRow x0 x3 x4 b) (fun t c => x1 (ix3 b t c)))

/-- The projected query, at row `b` and lane `d`. -/
theorem v4_row (b : Fin 2048) (d : Fin 128) :
    val_main_v4 (F := Ideal) x0 x3 x4 (ix3 b (0 : Fin 1) d) = qRow x0 x3 x4 b d := by
  rw [val_main_v4_apply, val_main_v3_apply, val_main_v0_apply, val_main_v2_apply, val_main_v1_apply]
  have e1 : ∀ k : Fin 128, lidx_main_v0 (ix3 b (0 : Fin 1) d) k = ix3 b (0 : Fin 1) k := fun k => funext fun a => Fin.ext (by
    match a with | ⟨0, _⟩ => rfl | ⟨1, _⟩ => rfl | ⟨2, _⟩ => rfl)
  have e2 : ∀ k : Fin 128, ridx_main_v0 (ix3 b (0 : Fin 1) d) k = ix2 k d := fun k => funext fun a => Fin.ext (by
    match a with | ⟨0, _⟩ => rfl | ⟨1, _⟩ => rfl)
  have e3 : idx_main_v1 (idx_main_v2 (ix3 b (0 : Fin 1) d)) = ix1 d := funext fun a => Fin.ext (by
    match a with | ⟨0, _⟩ => rfl)
  simp only [e1, e2, e3]
  rfl

/-- The scaled score of key `t`, at row `b`. -/
theorem v7_row (b : Fin 2048) (t : Fin 200) :
    val_main_v7 (F := Ideal) x0 x1 x3 x4 (ix3 b (0 : Fin 1) t)
      = AttnRow.score (qRow x0 x3 x4 b) (fun t c => x1 (ix3 b t c)) t := by
  rw [val_main_v7_apply, val_main_v5_apply, val_main_v6_apply, val_main_cst_0_apply]
  have e1 : ∀ k : Fin 128, lidx_main_v5 (ix3 b (0 : Fin 1) t) k = ix3 b (0 : Fin 1) k := fun k => funext fun a => Fin.ext (by
    match a with | ⟨0, _⟩ => rfl | ⟨1, _⟩ => rfl | ⟨2, _⟩ => rfl)
  have e2 : ∀ k : Fin 128, ridx_main_v5 (ix3 b (0 : Fin 1) t) k = ix3 b t k := fun k => funext fun a => Fin.ext (by
    match a with | ⟨0, _⟩ => rfl | ⟨1, _⟩ => rfl | ⟨2, _⟩ => rfl)
  simp only [e1, e2, v4_row]
  rfl

/-- The padded score of position `t`, at row `b`. -/
theorem v14_row (b : Fin 2048) (t : Fin 200) :
    val_main_v14 (F := Ideal) x0 x1 x2 x3 x4 (ix3 b (0 : Fin 1) t) = aRow x0 x1 x2 x3 x4 b t := by
  rw [val_main_v14_apply, val_main_v13_apply, val_main_v11_apply, val_main_v9_apply, val_main_v8_apply,
    val_main_v12_apply, val_main_v10_apply, val_main_call0_v0_apply, val_main_cst_apply, v7_row]
  have e : idx_main_v10 (idx_main_v12 (ix3 b (0 : Fin 1) t)) = ix2 b (0 : Fin 1) := funext fun a => Fin.ext (by
    match a with | ⟨0, _⟩ => rfl | ⟨1, _⟩ => rfl)
  rw [e]
  rfl

/-- The maximum of row `b`'s padded scores. -/
theorem v17_row (b : Fin 2048) :
    val_main_v17 (F := Ideal) x0 x1 x2 x3 x4 (ix2 b (0 : Fin 1)) = AttnRow.rowMax (aRow x0 x1 x2 x3 x4 b) := by
  have h : S2048x1x200.Reduces [2] S2048x1 := by decide
  rw [val_main_v17_apply, val_main_v16_apply, val_main_cst_2_apply]
  unfold val_main_v15
  rw [Host.reduce_eq_fold_single FloatOps.maximumf _ _ reducesTo_S2048x1x200_S2048x1_d2 h h_S_]
  refine (max_negInf _).trans ?_
  unfold AttnRow.rowMax
  refine congrArg (fun f : Fin 200 → EReal => Finset.fold max (Ideal.ofBits .f32 0xFF800000#32) f (Finset.univ : Finset (Fin 200))) ?_
  refine funext fun (t : Fin 200) => ?_
  show val_main_v14 (F := Ideal) x0 x1 x2 x3 x4 (h.lift (ix2 b (0 : Fin 1)) t) = _
  rw [← v14_row]
  exact congrArg (val_main_v14 (F := Ideal) x0 x1 x2 x3 x4) (funext fun a => Fin.ext (by
    match a with | ⟨0, _⟩ => rfl | ⟨1, _⟩ => rfl | ⟨2, _⟩ => rfl))

/-- The shifted exponential of position `t`, at row `b`. -/
theorem v21_row (b : Fin 2048) (t : Fin 200) :
    val_main_v21 (F := Ideal) x0 x1 x2 x3 x4 (ix3 b (0 : Fin 1) t) = AttnRow.expo (aRow x0 x1 x2 x3 x4 b) t := by
  rw [val_main_v21_apply, val_main_v20_apply, val_main_v19_apply, val_main_v18_apply, v14_row]
  have e : idx_main_v18 (idx_main_v19 (ix3 b (0 : Fin 1) t)) = ix2 b (0 : Fin 1) := funext fun a => Fin.ext (by
    match a with | ⟨0, _⟩ => rfl | ⟨1, _⟩ => rfl)
  rw [e, v17_row]
  rfl

/-- The sum of row `b`'s shifted exponentials. -/
theorem v22_row (b : Fin 2048) :
    val_main_v22 (F := Ideal) x0 x1 x2 x3 x4 (ix2 b (0 : Fin 1)) = ∑ t : Fin 200, AttnRow.expo (aRow x0 x1 x2 x3 x4 b) t := by
  rw [val_main_v22_apply, val_main_cst_3_apply]
  have e : ∀ k : Fin 200, idx_main_v22 (ix2 b (0 : Fin 1)) k = ix3 b (0 : Fin 1) k := fun k => funext fun a => Fin.ext (by
    match a with | ⟨0, _⟩ => rfl | ⟨1, _⟩ => rfl | ⟨2, _⟩ => rfl)
  simp only [e, v21_row]
  show Ideal.ofBits .f32 0x00000000#32 + _ = _
  rw [Ideal.ofBits_zero_f32, zero_add]

/-- The weight of position `t`, at row `b`. -/
theorem v25_row (b : Fin 2048) (t : Fin 200) :
    val_main_v25 (F := Ideal) x0 x1 x2 x3 x4 (ix3 b (0 : Fin 1) t) = AttnRow.weight (aRow x0 x1 x2 x3 x4 b) t := by
  rw [val_main_v25_apply, val_main_v24_apply, val_main_v23_apply, v21_row]
  have e : idx_main_v23 (idx_main_v24 (ix3 b (0 : Fin 1) t)) = ix2 b (0 : Fin 1) := funext fun a => Fin.ext (by
    match a with | ⟨0, _⟩ => rfl | ⟨1, _⟩ => rfl)
  rw [e, v22_row]
  rfl

/-- The pooled vector of row `b` at lane `c`. -/
theorem v26_row (b : Fin 2048) (c : Fin 128) :
    val_main_v26 (F := Ideal) x0 x1 x2 x3 x4 (ix3 b (0 : Fin 1) c)
      = AttnRow.attn (fun c => x0 (ix3 b (0 : Fin 1) c)) (fun t c => x1 (ix3 b t c)) (x2 (ix2 b (0 : Fin 1)))
          (fun c e => x3 (ix2 c e)) (fun e => x4 (ix1 e)) c := by
  rw [val_main_v26_apply]
  have e1 : ∀ k : Fin 200, lidx_main_v26 (ix3 b (0 : Fin 1) c) k = ix3 b (0 : Fin 1) k := fun k => funext fun a => Fin.ext (by
    match a with | ⟨0, _⟩ => rfl | ⟨1, _⟩ => rfl | ⟨2, _⟩ => rfl)
  have e2 : ∀ k : Fin 200, ridx_main_v26 (ix3 b (0 : Fin 1) c) k = ix3 b k c := fun k => funext fun a => Fin.ext (by
    match a with | ⟨0, _⟩ => rfl | ⟨1, _⟩ => rfl | ⟨2, _⟩ => rfl)
  simp only [e1, e2, v25_row]
  rfl

/-- THE REFERENCE'S RESULT at row `b` and lane `c`: the mean over the positions of the key entries shifted by the
    pooled entry. -/
theorem v32_row (b : Fin 2048) (c : Fin 128) :
    val_main_v32 (F := Ideal) x0 x1 x2 x3 x4 (ix3 b (0 : Fin 1) c)
      = AttnRow.meanAdd
          (AttnRow.attn (fun c => x0 (ix3 b (0 : Fin 1) c)) (fun t c => x1 (ix3 b t c)) (x2 (ix2 b (0 : Fin 1)))
            (fun c e => x3 (ix2 c e)) (fun e => x4 (ix1 e)) c)
          (fun t => x1 (ix3 b t c)) := by
  rw [val_main_v32_apply, val_main_v30_apply, val_main_v29_apply, val_main_v31_apply, val_main_cst_5_apply,
    val_main_cst_4_apply]
  have e : ∀ k : Fin 200, idx_main_v29 (idx_main_v30 (ix3 b (0 : Fin 1) c)) k = ix3 b k c := fun k => funext fun a => Fin.ext (by
    match a with | ⟨0, _⟩ => rfl | ⟨1, _⟩ => rfl | ⟨2, _⟩ => rfl)
  have e' : ∀ k : Fin 200, idx_main_v27 (ix3 b k c) = ix3 b (0 : Fin 1) c := fun k => funext fun a => Fin.ext (by
    match a with | ⟨0, _⟩ => rfl | ⟨1, _⟩ => rfl | ⟨2, _⟩ => rfl)
  simp only [e, val_main_v28_apply, val_main_v27_apply, e', v26_row]
  rfl

/-- THE REFERENCE'S RESULT ARRAY is the reference's form of the result of the argument arrays. -/
theorem v32_eq_form : val_main_v32 (F := Ideal) x0 x1 x2 x3 x4 = Pooled.referenceForm x0 x1 x2 x3 x4 := by
  funext i
  have h1 : (i 1).val < 1 := (i 1).isLt
  have e1 : i 1 = (0 : Fin 1) := Fin.ext (by show (i 1).val = 0; omega)
  obtain ⟨b, c, rfl⟩ : ∃ (b : Fin 2048) (c : Fin 128), i = ix3 b (0 : Fin 1) c :=
    ⟨i 0, i 2, (eq_ix3 i).trans (congrArg (fun q : Fin 1 => ix3 (i 0) q (i 2)) e1)⟩
  exact v32_row x0 x1 x2 x3 x4 b c

end Cert.ReferenceIdeal.Rows

end
-- ==== Proof.FiniteKeys.lean ====
/-
  Every key entry is a real number under the precondition.

  The precondition is the conjunction of four tests, one per float argument: every entry's absolute value is below
  `+∞`. The conjunction holds, so the test of the keys holds, so it holds at every index; and an extended real whose
  absolute value `max x (−x)` is below `+∞` is neither infinity, that is, it is a real.
-/
import proofs.«147762_j30296699306117_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.FiniteKeys

open Idealize.ShloMosaic Cert.Pre_finite_inputs

variable [Cert.Pre_finite_inputs.Facts]
open Cert.Pre_finite_inputs.Facts

instance : Subsingleton S_.Idx := ⟨fun a b => funext fun d => d.elim0⟩

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

/-- Under the precondition every entry of the keys is a real. -/
theorem keys_real (a0 : FVec Ideal S2048x1x128 .f32) (a1 : FVec Ideal S2048x200x128 .f32) (a2 : IVec S2048x1 32)
    (a3 : FVec Ideal S128x128 .f32) (a4 : FVec Ideal S128 .f32)
    (h : Cert.Pre_finite_inputs.fn (F := Ideal) a0 a1 a2 a3 a4 = fun _ => 1#1) (i : S2048x200x128.Idx) :
    ∃ r : ℝ, a1 i = (r : EReal) := by
  have h0 := congrFun h ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).2
  have h4 := Host.reduce_andi_all _ _ _ _ _ h3 i
  have e : broadcastInDim S2048x200x128 ![] bcast_S_S2048x200x128 (constant (F := Ideal) S_ .f32 0x7F800000#32) i
      = Ideal.ofBits .f32 0x7F800000#32 :=
    broadcastInDim_apply _ bcast_S_S2048x200x128 _ i (fun a => a.elim0) (fun a => a.elim0)
  refine real_of_abs_lt_inf (a1 i) ?_
  rw [← e]
  exact h4

end Cert.FiniteKeys

end
-- ==== Proof.lean ====
/-
  The kernel and its reference compute one function on the extended reals.

  For each of the 2048 batch rows both programs project the row's query vector through `tanh (u · W + β)`, score the
  row's 200 keys against it (scaled by one shared constant), pad the positions not below the row's length with one
  shared finite value, take the softmax of the padded scores as `exp (a − max a)` over its sum, and pool the keys with
  those weights. The kernel then adds the mean of each key column to the pooled entry; the reference adds the pooled
  entry to every key entry and takes the mean over the positions. The two results are equal because every key entry is
  a real under the precondition: `(∑ t, (o + k t)) / 200 = o + (∑ t, k t) / 200` for reals `k t` and ANY extended real
  `o`, so nothing has to be known about the pooled entry itself.

  The kernel's side: what a grid point leaves in its result block, row by row (Proof/KernelLayout.lean,
  Proof/KernelRows.lean), and from the blocks to the array (Proof/KernelArray.lean). The reference's side: its stages
  read at a batch row (Proof/RefRows.lean). The shared per-row functions and the law between the two endings:
  Proof/AttnRow.lean, Proof/Pooled.lean. That the keys are real under the precondition: Proof/FiniteKeys.lean.
  The idealization rewrote no operation of the kernel, so that conjunct is `True`.
-/
import proofs.«147762_j30296699306117_2_alg».proof.Defs
import proofs.«147762_j30296699306117_2_alg».proof.Proof.Gen.Kernel
import proofs.«147762_j30296699306117_2_alg».proof.Proof.Gen.Kernel.Skeleton
import proofs.«147762_j30296699306117_2_alg».proof.Proof.Gen.Kernel.Launch
import proofs.«147762_j30296699306117_2_alg».proof.Proof.Gen.Kernel.Points
import proofs.«147762_j30296699306117_2_alg».proof.Proof.Gen.Kernel.Frame
import proofs.«147762_j30296699306117_2_alg».proof.Proof.Gen.KernelIdeal
import proofs.«147762_j30296699306117_2_alg».proof.Proof.Gen.KernelIdeal.Skeleton
import proofs.«147762_j30296699306117_2_alg».proof.Proof.Gen.KernelIdeal.Launch
import proofs.«147762_j30296699306117_2_alg».proof.Proof.Gen.KernelIdeal.Points
import proofs.«147762_j30296699306117_2_alg».proof.Proof.Gen.KernelIdeal.Frame
import proofs.«147762_j30296699306117_2_alg».proof.Proof.Gen.ReferenceIdeal
import proofs.«147762_j30296699306117_2_alg».proof.Proof.Gen.Pre_finite_inputs
import proofs.«147762_j30296699306117_2_alg».proof.Proof.Gen.KernelIdeal.Value
import proofs.«147762_j30296699306117_2_alg».proof.Proof.Gen.ReferenceIdeal.Run
import proofs.«147762_j30296699306117_2_alg».proof.Proof.Gen.ReferenceIdeal.Read
import proofs.«147762_j30296699306117_2_alg».proof.Proof.KernelArray
import proofs.«147762_j30296699306117_2_alg».proof.Proof.RefRows
import proofs.«147762_j30296699306117_2_alg».proof.Proof.FiniteKeys
import Idealize.ShloMosaic.Adequacy
import Idealize.ShloMosaic.Init

noncomputable section

namespace Cert.Proof

open Idealize.ShloMosaic Idealize.SL.Sem Cert.Kernel

/-- The kernel, read at the machine's words, terminates without a fault and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both programs end with the kernel's form of the result: the kernel by its
    run, the reference because its form of the result is the kernel's when the keys are real. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2, Cert.ReferenceIdeal.Rows.v32_eq_form]
  exact Cert.Pooled.referenceForm_eq _ _ _ _ _ (fun j => Cert.FiniteKeys.keys_real _ _ _ _ _ (hpre c) j)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
